-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v27)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v27) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2000x256 : Shape := ⟨3, ![8, 2000, 256]⟩
abbrev S8x2000 : Shape := ⟨2, ![8, 2000]⟩
abbrev S8x256 : Shape := ⟨2, ![8, 256]⟩
abbrev S2000x256 : Shape := ⟨2, ![2000, 256]⟩
abbrev S256x256 : Shape := ⟨2, ![256, 256]⟩
abbrev S256 : Shape := ⟨1, ![256]⟩
abbrev S500000 : Shape := ⟨1, ![500000]⟩
abbrev S_ : Shape := ⟨0, ![]⟩

class Facts : Prop where
  bcast_S_S8x2000x256 : S_.BroadcastsInDim S8x2000x256 (![] : Fin 0 → Fin S8x2000x256.rank)
  reducesTo_S8x2000x256_S_d0_1_2 : S8x2000x256.ReducesTo [0, 1, 2] S_
  h_S_ : 0 < S_.numel
  bcast_S_S8x2000 : S_.BroadcastsInDim S8x2000 (![] : Fin 0 → Fin S8x2000.rank)
  reducesTo_S8x2000_S_d0_1 : S8x2000.ReducesTo [0, 1] S_
  bcast_S_S8x256 : S_.BroadcastsInDim S8x256 (![] : Fin 0 → Fin S8x256.rank)
  reducesTo_S8x256_S_d0_1 : S8x256.ReducesTo [0, 1] S_
  bcast_S_S2000x256 : S_.BroadcastsInDim S2000x256 (![] : Fin 0 → Fin S2000x256.rank)
  reducesTo_S2000x256_S_d0_1 : S2000x256.ReducesTo [0, 1] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_arg4 : FVec F S256x256 .f32) (main_arg5 : FVec F S256 .f32) (main_v13 : IVec S_ 1) (main_v16 : IVec S2000x256 1) : IVec S_ 1 :=
  let main_c_5 : IVec S_ 1 := constantI S_ 1 1#1
  let main_v17 : IVec S_ 1 := (fun x v => Host.reduce IntOp.andi x v reducesTo_S2000x256_S_d0_1 h_S_) main_v16 main_c_5
  let main_v18 : IVec S_ 1 := andi main_v13 main_v17
  let main_v19 : FVec F S256x256 .f32 := Host.absf main_arg4
  let main_cst_6 : FVec F S_ .f32 := constant S_ .f32 0x7F800000#32
  let main_v20 : FVec F S256x256 .f32 := broadcastInDim S256x256 ![] bcast_S_S256x256 main_cst_6
  let main_v21 : IVec S256x256 1 := cmpf .olt main_v19 main_v20
  let main_c_7 : IVec S_ 1 := constantI S_ 1 1#1
  let main_v22 : IVec S_ 1 := (fun x v => Host.reduce IntOp.andi x v reducesTo_S256x256_S_d0_1 h_S_) main_v21 main_c_7
  let main_v23 : IVec S_ 1 := andi main_v18 main_v22
  let main_v24 : FVec F S256 .f32 := Host.absf main_arg5
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  main_v28

def fn {F : FTy → Type} [FloatOps F] (main_arg0 : FVec F S8x2000x256 .f32) (main_arg1 : FVec F S8x2000 .f32) (main_arg2 : FVec F S8x256 .f32) (main_arg3 : FVec F S2000x256 .f32) (main_arg4 : FVec F S256x256 .f32) (main_arg5 : FVec F S256 .f32) (main_arg6 : IVec S500000 32) (main_arg7 : IVec S500000 32) (main_arg8 : IVec S500000 32) (main_arg9 : IVec S500000 32) : IVec S_ 1 :=
  let main_v0 : FVec F S8x2000x256 .f32 := Host.absf main_arg0
  let main_cst : FVec F S_ .f32 := constant S_ .f32 0x7F800000#32
  let main_v1 : FVec F S8x2000x256 .f32 := broadcastInDim S8x2000x256 ![] bcast_S_S8x2000x256 main_cst
  let main_v2 : IVec S8x2000x256 1 := cmpf .olt main_v0 main_v1
  let main_c : IVec S_ 1 := constantI S_ 1 1#1
  let main_v3 : IVec S_ 1 := (fun x v => Host.reduce IntOp.andi x v reducesTo_S8x2000x256_S_d0_1_2 h_S_) main_v2 main_c
  let main_v4 : FVec F S8x2000 .f32 := Host.absf main_arg1
  let main_cst_0 : FVec F S_ .f32 := constant S_ .f32 0x7F800000#32
  let main_v5 : FVec F S8x2000 .f32 := broadcastInDim S8x2000 ![] bcast_S_S8x2000 main_cst_0
  let main_v6 : IVec S8x2000 1 := cmpf .olt main_v4 main_v5
  let main_c_1 : IVec S_ 1 := constantI S_ 1 1#1
  let main_v7 : IVec S_ 1 := (fun x v => Host.reduce IntOp.andi x v reducesTo_S8x2000_S_d0_1 h_S_) main_v6 main_c_1
  let main_v8 : IVec S_ 1 := andi main_v3 main_v7
  let main_v9 : FVec F S8x256 .f32 := Host.absf main_arg2
  let main_cst_2 : FVec F S_ .f32 := constant S_ .f32 0x7F800000#32
  let main_v10 : FVec F S8x256 .f32 := broadcastInDim S8x256 ![] bcast_S_S8x256 main_cst_2
  let main_v11 : IVec S8x256 1 := cmpf .olt main_v9 main_v10
  let main_c_3 : IVec S_ 1 := constantI S_ 1 1#1
  let main_v12 : IVec S_ 1 := (fun x v => Host.reduce IntOp.andi x v reducesTo_S8x256_S_d0_1 h_S_) main_v11 main_c_3
  let main_v13 : IVec S_ 1 := andi main_v8 main_v12
  let main_v14 : FVec F S2000x256 .f32 := Host.absf main_arg3
  let main_cst_4 : FVec F S_ .f32 := constant S_ .f32 0x7F800000#32
  let main_v15 : FVec F S2000x256 .f32 := broadcastInDim S2000x256 ![] bcast_S_S2000x256 main_cst_4
  let main_v16 : IVec S2000x256 1 := cmpf .olt main_v14 main_v15
  fn_part1 (F := F) main_arg4 main_arg5 main_v13 main_v16
-- ==== Kernel.lean ====
abbrev S8x2000x256 : Shape := ⟨3, ![8, 2000, 256]⟩
abbrev S8x2000 : Shape := ⟨2, ![8, 2000]⟩
abbrev S8x256 : Shape := ⟨2, ![8, 256]⟩
abbrev S2000x256 : Shape := ⟨2, ![2000, 256]⟩
abbrev S256x256 : Shape := ⟨2, ![256, 256]⟩
abbrev S256 : Shape := ⟨1, ![256]⟩
abbrev S500000 : Shape := ⟨1, ![500000]⟩
abbrev S_ : Shape := ⟨0, ![]⟩
abbrev S500000x1 : Shape := ⟨2, ![500000, 1]⟩
abbrev S500000x256 : Shape := ⟨2, ![500000, 256]⟩
abbrev S16000 : Shape := ⟨1, ![16000]⟩
abbrev S4000x256 : Shape := ⟨2, ![4000, 256]⟩
abbrev S4000x1 : Shape := ⟨2, ![4000, 1]⟩
abbrev S1x256 : Shape := ⟨2, ![1, 256]⟩
abbrev S16000x256 : Shape := ⟨2, ![16000, 256]⟩

abbrev nBuf : Space → Nat
  | .hbm => 45
  | .vmem => 10
  | .smem => 0
  | _ => 0

abbrev bufTy : (tb : Table) → Fin (tcTables nBuf tb) → BufTy
  | .hbm, ⟨0, _⟩ => ⟨S8x2000x256, .f32⟩
  | .hbm, ⟨1, _⟩ => ⟨S8x2000, .f32⟩
  | .hbm, ⟨2, _⟩ => ⟨S8x256, .f32⟩
  | .hbm, ⟨3, _⟩ => ⟨S2000x256, .f32⟩
  | .hbm, ⟨4, _⟩ => ⟨S256x256, .f32⟩
  | .hbm, ⟨5, _⟩ => ⟨S256, .f32⟩
  | .hbm, ⟨6, _⟩ => ⟨S500000, .i32⟩
  | .hbm, ⟨7, _⟩ => ⟨S500000, .i32⟩
  | .hbm, ⟨8, _⟩ => ⟨S500000, .i32⟩
  | .hbm, ⟨9, _⟩ => ⟨S500000, .i32⟩
  | .hbm, ⟨10, _⟩ => ⟨S_, .i32⟩
  | .hbm, ⟨11, _⟩ => ⟨S500000, .i32⟩
  | .hbm, ⟨12, _⟩ => ⟨S500000, .i1⟩
  | .hbm, ⟨13, _⟩ => ⟨S_, .i32⟩
  | .hbm, ⟨14, _⟩ => ⟨S500000, .i32⟩
  | .hbm, ⟨15, _⟩ => ⟨S500000, .i32⟩
  | .hbm, ⟨16, _⟩ => ⟨S500000, .i32⟩
  | .hbm, ⟨17, _⟩ => ⟨S500000x1, .i32⟩
  | .hbm, ⟨18, _⟩ => ⟨S500000x256, .f32⟩
  | .hbm, ⟨19, _⟩ => ⟨S_, .i32⟩
  | .hbm, ⟨20, _⟩ => ⟨S500000, .i32⟩
  | .hbm, ⟨21, _⟩ => ⟨S500000, .i1⟩
  | .hbm, ⟨22, _⟩ => ⟨S_, .i32⟩
  | .hbm, ⟨23, _⟩ => ⟨S500000, .i32⟩
  | .hbm, ⟨24, _⟩ => ⟨S500000, .i32⟩
  | .hbm, ⟨25, _⟩ => ⟨S500000, .i32⟩
  | .hbm, ⟨26, _⟩ => ⟨S500000x1, .i32⟩
  | .hbm, ⟨27, _⟩ => ⟨S500000x256, .f32⟩
  | .hbm, ⟨28, _⟩ => ⟨S16000, .f32⟩
  | .hbm, ⟨29, _⟩ => ⟨S_, .i32⟩
  | .hbm, ⟨30, _⟩ => ⟨S500000, .i32⟩
  | .hbm, ⟨31, _⟩ => ⟨S500000, .i1⟩
  | .hbm, ⟨32, _⟩ => ⟨S_, .i32⟩
  | .hbm, ⟨33, _⟩ => ⟨S500000, .i32⟩
  | .hbm, ⟨34, _⟩ => ⟨S500000, .i32⟩
  | .hbm, ⟨35, _⟩ => ⟨S500000, .i32⟩
  | .hbm, ⟨36, _⟩ => ⟨S500000x1, .i32⟩
  | .hbm, ⟨37, _⟩ => ⟨S500000, .f32⟩
  | .hbm, ⟨38, _⟩ => ⟨S500000x1, .f32⟩
  | .hbm, ⟨39, _⟩ => ⟨S500000x256, .f32⟩
  | .hbm, ⟨40, _⟩ => ⟨S_, .f32⟩
  | .hbm, ⟨41, _⟩ => ⟨S16000x256, .f32⟩
  | .hbm, ⟨42, _⟩ => ⟨S500000x1, .i32⟩
  | .hbm, ⟨43, _⟩ => ⟨S16000x256, .f32⟩
  | .hbm, ⟨44, _⟩ => ⟨S8x2000x256, .f32⟩
  | .local _ .vmem, ⟨0, _⟩ => ⟨S4000x256, .f32⟩
  | .local _ .vmem, ⟨1, _⟩ => ⟨S4000x256, .f32⟩
  | .local _ .vmem, ⟨2, _⟩ => ⟨S4000x256, .f32⟩
  | .local _ .vmem, ⟨3, _⟩ => ⟨S4000x256, .f32⟩
  | .local _ .vmem, ⟨4, _⟩ => ⟨S4000x1, .f32⟩
  | .local _ .vmem, ⟨5, _⟩ => ⟨S4000x1, .f32⟩
  | .local _ .vmem, ⟨6, _⟩ => ⟨S256x256, .f32⟩
  | .local _ .vmem, ⟨7, _⟩ => ⟨S256, .f32⟩
  | .local _ .vmem, ⟨8, _⟩ => ⟨S4000x256, .f32⟩
  | .local _ .vmem, ⟨9, _⟩ => ⟨S4000x256, .f32⟩
  | _, _ => ⟨S8x2000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_c : Ref sig .tc := ⟨.hbm, 10, rfl⟩
abbrev main_v0 : Ref sig .tc := ⟨.hbm, 11, rfl⟩
abbrev main_v1 : Ref sig .tc := ⟨.hbm, 12, rfl⟩
abbrev main_c_0 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_c_1 : Ref sig .tc := ⟨.hbm, 19, rfl⟩
abbrev main_v7 : Ref sig .tc := ⟨.hbm, 20, rfl⟩
abbrev main_v8 : Ref sig .tc := ⟨.hbm, 21, rfl⟩
abbrev main_c_2 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_c_3 : Ref sig .tc := ⟨.hbm, 29, rfl⟩
abbrev main_v15 : Ref sig .tc := ⟨.hbm, 30, rfl⟩
abbrev main_v16 : Ref sig .tc := ⟨.hbm, 31, rfl⟩
abbrev main_c_4 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_cst : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![125], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S4000x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  bcast_S_S500000 : S_.BroadcastsInDim S500000 (![] : Fin 0 → Fin S500000.rank)
  bcast_S500000_S500000x1_0 : S500000.BroadcastsInDim S500000x1 (![0] : Fin 1 → Fin S500000x1.rank)
  shapeCasts_S8x2000_S16000 : S8x2000.ShapeCasts S16000
  inb_S4000x256_S4000x256_0_0 : ∀ a, (![0, 0] : Fin 2 → Nat) a + S4000x256.size a ≤ S4000x256.size a
  h_S4000x256 : 0 < S4000x256.numel
  shapeCasts_S4000x256_S4000x256 : S4000x256.ShapeCasts S4000x256
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  inb_S256_S256_0 : ∀ a, (![0] : Fin 1 → Nat) a + S256.size a ≤ S256.size a
  h_S256 : 0 < S256.numel
  shapeCasts_S256_S1x256 : S256.ShapeCasts S1x256
  broadcasts_S1x256_S4000x256 : S1x256.Broadcasts S4000x256
  inb_S4000x1_S4000x1_0_0 : ∀ a, (![0, 0] : Fin 2 → Nat) a + S4000x1.size a ≤ S4000x1.size a
  h_S4000x1 : 0 < S4000x1.numel
  shapeCasts_S4000x1_S4000x1 : S4000x1.ShapeCasts S4000x1
  broadcasts_S4000x1_S4000x256 : S4000x1.Broadcasts S4000x256
  bcast_S_S16000x256 : S_.BroadcastsInDim S16000x256 (![] : Fin 0 → Fin S16000x256.rank)
  shapeCasts_S16000x256_S8x2000x256 : S16000x256.ShapeCasts S8x2000x256
  gather_S2000x256_S500000x1_S500000x256_1_0_n_n_0_1_1256_wf : GatherDims.WF S2000x256 S500000x1 S500000x256 [1] [0] [] [0] [] 1 ![1, 256]
  gather_S8x256_S500000x1_S500000x256_1_0_n_n_0_1_1256_wf : GatherDims.WF S8x256 S500000x1 S500000x256 [1] [0] [] [0] [] 1 ![1, 256]
  gather_S16000_S500000x1_S500000_n_0_n_n_0_1_1_wf : GatherDims.WF S16000 S500000x1 S500000 [] [0] [] [0] [] 1 ![1]
  dot_S4000x256_S256x256_S4000x256_1_1_0_0_n_n_wf : DotDims.WF S4000x256 S256x256 S4000x256 [1] [1] [0] [0] [] []
  scatter_S16000x256_S500000x1_S500000x256_1_0_0_1_wf : ScatterDims.WF S16000x256 S500000x1 S500000x256 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x256.size a ≤ S500000x256.size a
  hwx0_0 : ∀ i : grid0.Coords, EltTy.bits .f32 = 32 ∨ (Rect.block (s := S500000x256) S4000x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x256.size a ≤ S500000x256.size a
  hwx0_1 : ∀ i : grid0.Coords, EltTy.bits .f32 = 32 ∨ (Rect.block (s := S500000x256) S4000x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x1.size a ≤ S500000x1.size a
  hwx0_2 : ∀ i : grid0.Coords, EltTy.bits .f32 = 32 ∨ (Rect.block (s := S500000x1) S4000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S256x256.size a
  hwx0_3 : ∀ i : grid0.Coords, EltTy.bits .f32 = 32 ∨ (Rect.block (s := S256x256) S256x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256.size a ≤ S256.size a
  hwx0_4 : ∀ i : grid0.Coords, EltTy.bits .f32 = 32 ∨ (Rect.block (s := S256) S256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S4000x256.size a ≤ S500000x256.size a
  hwx0_5 : ∀ i : grid0.Coords, EltTy.bits .f32 = 32 ∨ (Rect.block (s := S500000x256) S4000x256.size (cc0_transform_5 i) (hinb0_5 i)).WholeWords (EltTy.packing .f32)

variable [Facts₀]

def gather_S2000x256_S500000x1_S500000x256_1_0_n_n_0_1_1256 : GatherDims S2000x256 S500000x1 S500000x256 where
  offsetDims := [1]
  collapsedSliceDims := [0]
  operandBatchingDims := []
  startIndicesBatchingDims := []
  startIndexMap := [0]
  indexVectorDim := 1
  sliceSizes := ![1, 256]
  wf := gather_S2000x256_S500000x1_S500000x256_1_0_n_n_0_1_1256_wf
def gather_S8x256_S500000x1_S500000x256_1_0_n_n_0_1_1256 : GatherDims S8x256 S500000x1 S500000x256 where
  offsetDims := [1]
  collapsedSliceDims := [0]
  operandBatchingDims := []
  startIndicesBatchingDims := []
  startIndexMap := [0]
  indexVectorDim := 1
  sliceSizes := ![1, 256]
  wf := gather_S8x256_S500000x1_S500000x256_1_0_n_n_0_1_1256_wf
def gather_S16000_S500000x1_S500000_n_0_n_n_0_1_1 : GatherDims S16000 S500000x1 S500000 where
  offsetDims := []
  collapsedSliceDims := [0]
  operandBatchingDims := []
  startIndicesBatchingDims := []
  startIndexMap := [0]
  indexVectorDim := 1
  sliceSizes := ![1]
  wf := gather_S16000_S500000x1_S500000_n_0_n_n_0_1_1_wf
def dot_S4000x256_S256x256_S4000x256_1_1_0_0_n_n : DotDims S4000x256 S256x256 S4000x256 where
  lhsContracting := [1]
  rhsContracting := [1]
  lhsNonContracting := [0]
  rhsNonContracting := [0]
  lhsBatch := []
  rhsBatch := []
  wf := dot_S4000x256_S256x256_S4000x256_1_1_0_0_n_n_wf
def scatter_S16000x256_S500000x1_S500000x256_1_0_0_1 : ScatterDims S16000x256 S500000x1 S500000x256 where
  updateWindowDims := [1]
  insertedWindowDims := [0]
  scatterDimsToOperandDims := [0]
  indexVectorDim := 1
  wf := scatter_S16000x256_S500000x1_S500000x256_1_0_0_1_wf

abbrev win0_0 : Pipeline.Window sig grid0 :=
  Pipeline.Window.ofSpec (Memref.whole main_v6) S4000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S4000x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v22) S4000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S256x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v23) S4000x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S8x2000x256 : Shape := ⟨3, ![8, 2000, 256]⟩
abbrev S8x2000 : Shape := ⟨2, ![8, 2000]⟩
abbrev S8x256 : Shape := ⟨2, ![8, 256]⟩
abbrev S2000x256 : Shape := ⟨2, ![2000, 256]⟩
abbrev S256x256 : Shape := ⟨2, ![256, 256]⟩
abbrev S256 : Shape := ⟨1, ![256]⟩
abbrev S500000 : Shape := ⟨1, ![500000]⟩
abbrev S_ : Shape := ⟨0, ![]⟩
abbrev S500000x1 : Shape := ⟨2, ![500000, 1]⟩
abbrev S500000x256 : Shape := ⟨2, ![500000, 256]⟩
abbrev S1x256 : Shape := ⟨2, ![1, 256]⟩
abbrev S16000 : Shape := ⟨1, ![16000]⟩
abbrev S16000x256 : Shape := ⟨2, ![16000, 256]⟩

abbrev nBuf : Space → Nat
  | .hbm => 55
  | .vmem => 0
  | .smem => 0
  | _ => 0

abbrev bufTy : (tb : Table) → Fin (tcTables nBuf tb) → BufTy
  | .hbm, ⟨0, _⟩ => ⟨S8x2000x256, .f32⟩
  | .hbm, ⟨1, _⟩ => ⟨S8x2000, .f32⟩
  | .hbm, ⟨2, _⟩ => ⟨S8x256, .f32⟩
  | .hbm, ⟨3, _⟩ => ⟨S2000x256, .f32⟩
  | .hbm, ⟨4, _⟩ => ⟨S256x256, .f32⟩
  | .hbm, ⟨5, _⟩ => ⟨S256, .f32⟩
  | .hbm, ⟨6, _⟩ => ⟨S500000, .i32⟩
  | .hbm, ⟨7, _⟩ => ⟨S500000, .i32⟩
  | .hbm, ⟨8, _⟩ => ⟨S500000, .i32⟩
  | .hbm, ⟨9, _⟩ => ⟨S500000, .i32⟩
  | .hbm, ⟨10, _⟩ => ⟨S_, .i32⟩
  | .hbm, ⟨11, _⟩ => ⟨S500000, .i32⟩
  | .hbm, ⟨12, _⟩ => ⟨S500000, .i1⟩
  | .hbm, ⟨13, _⟩ => ⟨S_, .i32⟩
  | .hbm, ⟨14, _⟩ => ⟨S500000, .i32⟩
  | .hbm, ⟨15, _⟩ => ⟨S500000, .i32⟩
  | .hbm, ⟨16, _⟩ => ⟨S500000, .i32⟩
  | .hbm, ⟨17, _⟩ => ⟨S500000x1, .i32⟩
  | .hbm, ⟨18, _⟩ => ⟨S500000x256, .f32⟩
  | .hbm, ⟨19, _⟩ => ⟨S_, .i32⟩
  | .hbm, ⟨20, _⟩ => ⟨S500000, .i32⟩
  | .hbm, ⟨21, _⟩ => ⟨S500000, .i1⟩
  | .hbm, ⟨22, _⟩ => ⟨S_, .i32⟩
  | .hbm, ⟨23, _⟩ => ⟨S500000, .i32⟩
  | .hbm, ⟨24, _⟩ => ⟨S500000, .i32⟩
  | .hbm, ⟨25, _⟩ => ⟨S500000, .i32⟩
  | .hbm, ⟨26, _⟩ => ⟨S500000x1, .i32⟩
  | .hbm, ⟨27, _⟩ => ⟨S500000x256, .f32⟩
  | .hbm, ⟨28, _⟩ => ⟨S256x256, .f32⟩
  | .hbm, ⟨29, _⟩ => ⟨S500000x256, .f32⟩
  | .hbm, ⟨30, _⟩ => ⟨S1x256, .f32⟩
  | .hbm, ⟨31, _⟩ => ⟨S500000x256, .f32⟩
  | .hbm, ⟨32, _⟩ => ⟨S500000x256, .f32⟩
  | .hbm, ⟨33, _⟩ => ⟨S500000x256, .f32⟩
  | .hbm, ⟨34, _⟩ => ⟨S_, .f32⟩
  | .hbm, ⟨35, _⟩ => ⟨S500000x256, .f32⟩
  | .hbm, ⟨36, _⟩ => ⟨S500000x256, .f32⟩
  | .hbm, ⟨37, _⟩ => ⟨S16000, .f32⟩
  | .hbm, ⟨38, _⟩ => ⟨S_, .i32⟩
  | .hbm, ⟨39, _⟩ => ⟨S500000, .i32⟩
  | .hbm, ⟨40, _⟩ => ⟨S500000, .i1⟩
  | .hbm, ⟨41, _⟩ => ⟨S_, .i32⟩
  | .hbm, ⟨42, _⟩ => ⟨S500000, .i32⟩
  | .hbm, ⟨43, _⟩ => ⟨S500000, .i32⟩
  | .hbm, ⟨44, _⟩ => ⟨S500000, .i32⟩
  | .hbm, ⟨45, _⟩ => ⟨S500000x1, .i32⟩
  | .hbm, ⟨46, _⟩ => ⟨S500000, .f32⟩
  | .hbm, ⟨47, _⟩ => ⟨S500000x1, .f32⟩
  | .hbm, ⟨48, _⟩ => ⟨S500000x256, .f32⟩
  | .hbm, ⟨49, _⟩ => ⟨S500000x256, .f32⟩
  | .hbm, ⟨50, _⟩ => ⟨S_, .f32⟩
  | .hbm, ⟨51, _⟩ => ⟨S16000x256, .f32⟩
  | .hbm, ⟨52, _⟩ => ⟨S500000x1, .i32⟩
  | .hbm, ⟨53, _⟩ => ⟨S16000x256, .f32⟩
  | .hbm, ⟨54, _⟩ => ⟨S8x2000x256, .f32⟩
  | _, _ => ⟨S8x2000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_c : Ref sig .tc := ⟨.hbm, 10, rfl⟩
abbrev main_v0 : Ref sig .tc := ⟨.hbm, 11, rfl⟩
abbrev main_v1 : Ref sig .tc := ⟨.hbm, 12, rfl⟩
abbrev main_c_0 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_c_1 : Ref sig .tc := ⟨.hbm, 19, rfl⟩
abbrev main_v7 : Ref sig .tc := ⟨.hbm, 20, rfl⟩
abbrev main_v8 : Ref sig .tc := ⟨.hbm, 21, rfl⟩
abbrev main_c_2 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_call0_cst : Ref sig .tc := ⟨.hbm, 34, rfl⟩
abbrev main_call0_v0 : Ref sig .tc := ⟨.hbm, 35, rfl⟩
abbrev main_v20 : Ref sig .tc := ⟨.hbm, 36, rfl⟩
abbrev main_v21 : Ref sig .tc := ⟨.hbm, 37, rfl⟩
abbrev main_c_3 : Ref sig .tc := ⟨.hbm, 38, rfl⟩
abbrev main_v22 : Ref sig .tc := ⟨.hbm, 39, rfl⟩
abbrev main_v23 : Ref sig .tc := ⟨.hbm, 40, rfl⟩
abbrev main_c_4 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_cst : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩

abbrev nD : Nat := 1
abbrev τ : Topo := Topo.v7x

variable {F : FTy → Type} [FloatOps F]

class Facts₀ : Prop where
  bcast_S_S500000 : S_.BroadcastsInDim S500000 (![] : Fin 0 → Fin S500000.rank)
  bcast_S500000_S500000x1_0 : S500000.BroadcastsInDim S500000x1 (![0] : Fin 1 → Fin S500000x1.rank)
  transposes_S256x256_S256x256_1_0 : S256x256.Transposes [1, 0] S256x256
  bcast_S256_S1x256_1 : S256.BroadcastsInDim S1x256 (![1] : Fin 1 → Fin S1x256.rank)
  bcast_S1x256_S500000x256_0_1 : S1x256.BroadcastsInDim S500000x256 (![0, 1] : Fin 2 → Fin S500000x256.rank)
  bcast_S_S500000x256 : S_.BroadcastsInDim S500000x256 (![] : Fin 0 → Fin S500000x256.rank)
  shapeCasts_S8x2000_S16000 : S8x2000.ShapeCasts S16000
  bcast_S500000x1_S500000x256_0_1 : S500000x1.BroadcastsInDim S500000x256 (![0, 1] : Fin 2 → Fin S500000x256.rank)
  bcast_S_S16000x256 : S_.BroadcastsInDim S16000x256 (![] : Fin 0 → Fin S16000x256.rank)
  shapeCasts_S16000x256_S8x2000x256 : S16000x256.ShapeCasts S8x2000x256
  gather_S2000x256_S500000x1_S500000x256_1_0_n_n_0_1_1256_wf : GatherDims.WF S2000x256 S500000x1 S500000x256 [1] [0] [] [0] [] 1 ![1, 256]
  gather_S8x256_S500000x1_S500000x256_1_0_n_n_0_1_1256_wf : GatherDims.WF S8x256 S500000x1 S500000x256 [1] [0] [] [0] [] 1 ![1, 256]
  dot_S500000x256_S256x256_S500000x256_1_0_0_1_n_n_wf : DotDims.WF S500000x256 S256x256 S500000x256 [1] [0] [0] [1] [] []
  gather_S16000_S500000x1_S500000_n_0_n_n_0_1_1_wf : GatherDims.WF S16000 S500000x1 S500000 [] [0] [] [0] [] 1 ![1]
  scatter_S16000x256_S500000x1_S500000x256_1_0_0_1_wf : ScatterDims.WF S16000x256 S500000x1 S500000x256 [1] [0] [0] 1

variable [Facts₀]

def gather_S2000x256_S500000x1_S500000x256_1_0_n_n_0_1_1256 : GatherDims S2000x256 S500000x1 S500000x256 where
  offsetDims := [1]
  collapsedSliceDims := [0]
  operandBatchingDims := []
  startIndicesBatchingDims := []
  startIndexMap := [0]
  indexVectorDim := 1
  sliceSizes := ![1, 256]
  wf := gather_S2000x256_S500000x1_S500000x256_1_0_n_n_0_1_1256_wf
def gather_S8x256_S500000x1_S500000x256_1_0_n_n_0_1_1256 : GatherDims S8x256 S500000x1 S500000x256 where
  offsetDims := [1]
  collapsedSliceDims := [0]
  operandBatchingDims := []
  startIndicesBatchingDims := []
  startIndexMap := [0]
  indexVectorDim := 1
  sliceSizes := ![1, 256]
  wf := gather_S8x256_S500000x1_S500000x256_1_0_n_n_0_1_1256_wf
def dot_S500000x256_S256x256_S500000x256_1_0_0_1_n_n : DotDims S500000x256 S256x256 S500000x256 where
  lhsContracting := [1]
  rhsContracting := [0]
  lhsNonContracting := [0]
  rhsNonContracting := [1]
  lhsBatch := []
  rhsBatch := []
  wf := dot_S500000x256_S256x256_S500000x256_1_0_0_1_n_n_wf
def gather_S16000_S500000x1_S500000_n_0_n_n_0_1_1 : GatherDims S16000 S500000x1 S500000 where
  offsetDims := []
  collapsedSliceDims := [0]
  operandBatchingDims := []
  startIndicesBatchingDims := []
  startIndexMap := [0]
  indexVectorDim := 1
  sliceSizes := ![1]
  wf := gather_S16000_S500000x1_S500000_n_0_n_n_0_1_1_wf
def scatter_S16000x256_S500000x1_S500000x256_1_0_0_1 : ScatterDims S16000x256 S500000x1 S500000x256 where
  updateWindowDims := [1]
  insertedWindowDims := [0]
  scatterDimsToOperandDims := [0]
  indexVectorDim := 1
  wf := scatter_S16000x256_S500000x1_S500000x256_1_0_0_1_wf

class Facts : Prop extends Facts₀ where

variable [Facts]
-- ==== Proof.FactRow.lean ====
import Idealize.ShloMosaic.Lib.ValueIdx
import Idealize.ShloMosaic.PureOps.Ideal.Laws

/-!
# One fact's message, entry by entry

A fact carries a relation row `r` (256 numbers), a query row, and a prior weight. Its message has 256 entries; entry `q`
is the relation row projected by row `q` of the weight matrix `W` plus the bias, gated by the query's entry `q`,
cut off below at zero, and scaled by the prior:

  `max ((∑ k, r k · W (q, k) + b q) · query q, 0) · prior`.

Entry `q` of fact `p` reads row `p` of the relation and query arrays and the prior of row `p` only, so the
array of all messages can be computed any number of rows at a time.
-/

noncomputable section

namespace Cert.FactRow

open Idealize.ShloMosaic Idealize.ShloMosaic.ValueIdx
open scoped BigOperators

/-- Entry `q` of one fact's message, from the fact's relation row `r`, its gate `g` (the query's entry `q`) and its
    prior `pr`: the row projected by row `q` of `W`, shifted by the bias, gated, cut off below at zero, scaled. The zero
    is kept as the float word the programs spell. -/
def entry (r : Fin 256 → EReal) (W : (⟨2, ![256, 256]⟩ : Shape).Idx → EReal) (b : (⟨1, ![256]⟩ : Shape).Idx → EReal)
    (g pr : EReal) (q : Fin 256) : EReal :=
  max ((∑ k : Fin 256, r k * W (ix2 q k) + b (ix1 q)) * g) (Ideal.ofBits .f32 0x00000000#32) * pr

/-- An entry depends on its six ingredients only: equal ingredients give equal entries. -/
theorem entry_congr {r r' : Fin 256 → EReal} {W W' : (⟨2, ![256, 256]⟩ : Shape).Idx → EReal}
    {b b' : (⟨1, ![256]⟩ : Shape).Idx → EReal} {g g' pr pr' : EReal} {q q' : Fin 256}
    (hr : ∀ k, r k = r' k) (hW : W = W') (hb : b = b') (hg : g = g') (hp : pr = pr') (hq : q = q') :
    entry r W b g pr q = entry r' W' b' g' pr' q' := by
  obtain rfl : r = r' := funext hr
  subst hW hb hg hp hq
  rfl

/-- The messages of all 500000 facts as one array: entry `(p, q)` is entry `q` of fact `p`, whose relation row and query
    row are rows `p` of `rel` and `query` and whose prior is the one entry of row `p` of the column `prior`. -/
def facts (rel query : (⟨2, ![500000, 256]⟩ : Shape).Idx → EReal) (prior : (⟨2, ![500000, 1]⟩ : Shape).Idx → EReal)
    (W : (⟨2, ![256, 256]⟩ : Shape).Idx → EReal) (b : (⟨1, ![256]⟩ : Shape).Idx → EReal) :
    (⟨2, ![500000, 256]⟩ : Shape).Idx → EReal :=
  fun i => entry (fun k => rel (ix2 (i 0) k)) W b (query i) (prior (ix2 (i 0) (0 : Fin 1))) (i 1)

/-- The array of messages read at `(p, q)`. -/
theorem facts_apply (rel query : (⟨2, ![500000, 256]⟩ : Shape).Idx → EReal) (prior : (⟨2, ![500000, 1]⟩ : Shape).Idx → EReal)
    (W : (⟨2, ![256, 256]⟩ : Shape).Idx → EReal) (b : (⟨1, ![256]⟩ : Shape).Idx → EReal) (p : Fin 500000) (q : Fin 256) :
    facts rel query prior W b (ix2 p q)
      = entry (fun k => rel (ix2 p k)) W b (query (ix2 p q)) (prior (ix2 p (0 : Fin 1))) q := rfl

end Cert.FactRow

end
-- ==== Proof.LibDotRows.lean ====
import Idealize.ShloMosaic.Lib.ValueIdx
import Idealize.ShloMosaic.PureOps.Ideal.Laws

/-!
# A product of rows with rows, read at an index

For dimension numbers that contract the second axis of BOTH operands and have no batch axis, the product
`[M, K] × [N, K] → [M, N]` (an einsum `mk,nk->mn`: the right operand is used transposed without being
transposed) at the index `(p, q)` is the plain sum `∑ k < K, l (p, k) · r (q, k)` over the extended reals —
for the matrix unit's product into a zero accumulator and for the host's `dot_general` alike, whatever
`M`, `K`, `N` are. Entry `(p, q)` depends on row `p` of the left operand and row `q` of the right one only,
so a program that cuts the left operand into row tiles computes the same entries as one that does not.
-/

noncomputable section

namespace Cert.LibDotRows

open Idealize.ShloMosaic Idealize.ShloMosaic.ValueIdx
open scoped BigOperators

/-- The dimension numbers of a rows-with-rows product: axis 1 of the left operand against axis 1 of the right
    operand, axis 0 of each kept (the left one first), no batch axis. -/
structure RowsRows {M K N : Nat} (d : DotDims ⟨2, ![M, K]⟩ ⟨2, ![N, K]⟩ ⟨2, ![M, N]⟩) : Prop where
  lc : d.lhsContracting = [1]
  rc : d.rhsContracting = [1]
  ln : d.lhsNonContracting = [0]
  rn : d.rhsNonContracting = [0]
  lb : d.lhsBatch = []
  rb : d.rhsBatch = []

section Spelt

variable {M K N : Nat}
  (wf : DotDims.WF (⟨2, ![M, K]⟩ : Shape) (⟨2, ![N, K]⟩ : Shape) (⟨2, ![M, N]⟩ : Shape) [1] [1] [0] [0] [] [])

/-- The record with its six lists written out. -/
abbrev spelt : DotDims ⟨2, ![M, K]⟩ ⟨2, ![N, K]⟩ ⟨2, ![M, N]⟩ := ⟨[1], [1], [0], [0], [], [], wf⟩

/-- The left operand is read in the result's row. -/
theorem spelt_lhs_row (j : (⟨2, ![M, N]⟩ : Shape).Idx) (k : (spelt wf).contr.Idx) :
    ((spelt wf).lhsIdx j k 0).val = (j 0).val := by
  unfold DotDims.lhsIdx
  rw [dif_neg (show ¬ (0 : Fin 2) ∈ (spelt wf).lhsBatch from List.not_mem_nil),
    dif_pos (show (0 : Fin 2) ∈ (spelt wf).lhsNonContracting from List.mem_singleton.mpr rfl)]
  rfl

/-- The right operand is read in the ROW numbered by the result's column. -/
theorem spelt_rhs_row (j : (⟨2, ![M, N]⟩ : Shape).Idx) (k : (spelt wf).contr.Idx) :
    ((spelt wf).rhsIdx j k 0).val = (j 1).val := by
  unfold DotDims.rhsIdx
  rw [dif_neg (show ¬ (0 : Fin 2) ∈ (spelt wf).rhsBatch from List.not_mem_nil),
    dif_pos (show (0 : Fin 2) ∈ (spelt wf).rhsNonContracting from List.mem_singleton.mpr rfl)]
  rfl

/-- The contraction's sum, re-indexed by the one contracted coordinate. -/
theorem spelt_sum (l : (⟨2, ![M, K]⟩ : Shape).Idx → EReal) (r : (⟨2, ![N, K]⟩ : Shape).Idx → EReal) (p : Fin M) (q : Fin N) :
    ∑ k : (spelt wf).contr.Idx, l ((spelt wf).lhsIdx (ix2 p q) k) * r ((spelt wf).rhsIdx (ix2 p q) k)
      = ∑ k : Fin K, l (ix2 p k) * r (ix2 q k) := by
  rw [← Equiv.sum_comp (contrEquiv1 (spelt wf) K rfl rfl).symm]
  refine Finset.sum_congr rfl fun k _ => ?_
  have hk := contrEquiv1_symm_val (spelt wf) K rfl rfl k
  have el : (spelt wf).lhsIdx (ix2 p q) ((contrEquiv1 (spelt wf) K rfl rfl).symm k) = ix2 p k :=
    funext fun a => Fin.ext (by
      match a with
      | ⟨0, _⟩ => exact spelt_lhs_row wf _ _
      | ⟨1, _⟩ => exact ((spelt wf).lhsIdx_val_of_single rfl _ _).trans hk)
  have er : (spelt wf).rhsIdx (ix2 p q) ((contrEquiv1 (spelt wf) K rfl rfl).symm k) = ix2 q k :=
    funext fun a => Fin.ext (by
      match a with
      | ⟨0, _⟩ => exact spelt_rhs_row wf _ _
      | ⟨1, _⟩ => exact ((spelt wf).rhsIdx_val_of_single rfl _ _).trans hk)
  rw [el, er]

end Spelt

/-- The sum over the contraction index of a rows-with-rows product is the sum over `k < K` of the left operand at
    `(p, k)` times the right operand at `(q, k)`. -/
theorem sum_contr {M K N : Nat} (d : DotDims ⟨2, ![M, K]⟩ ⟨2, ![N, K]⟩ ⟨2, ![M, N]⟩) (h : RowsRows d)
    (l : (⟨2, ![M, K]⟩ : Shape).Idx → EReal) (r : (⟨2, ![N, K]⟩ : Shape).Idx → EReal) (p : Fin M) (q : Fin N) :
    ∑ k : d.contr.Idx, l (d.lhsIdx (ix2 p q) k) * r (d.rhsIdx (ix2 p q) k) = ∑ k : Fin K, l (ix2 p k) * r (ix2 q k) := by
  obtain ⟨lc, rc, ln, rn, lb, rb, wf⟩ := d
  obtain ⟨h1, h2, h3, h4, h5, h6⟩ := h
  dsimp only at h1 h2 h3 h4 h5 h6
  subst h1 h2 h3 h4 h5 h6
  exact spelt_sum wf l r p q

/-- The matrix unit's product into a zero accumulator, at an index: the plain sum over the shared second axis. -/
theorem matmul_zero_apply {M K N : Nat} {φ₁ φ₂ : FTy} (d : DotDims ⟨2, ![M, K]⟩ ⟨2, ![N, K]⟩ ⟨2, ![M, N]⟩) (h : RowsRows d)
    (prec : Option ContractPrecision) (lhs : FVec Ideal ⟨2, ![M, K]⟩ φ₁) (rhs : FVec Ideal ⟨2, ![N, K]⟩ φ₂) (p : Fin M) (q : Fin N) :
    FloatOps.matmul d prec lhs rhs (constant ⟨2, ![M, N]⟩ .f32 0x00000000#32) (ix2 p q)
      = ∑ k : Fin K, lhs (ix2 p k) * rhs (ix2 q k) :=
  (Ideal.matmul_constant_zero_apply d prec lhs rhs (ix2 p q)).trans (sum_contr d h lhs rhs p q)

/-- The host's `dot_general` at an index: the same sum, whatever the schedule key. -/
theorem dotGeneral_apply {M K N : Nat} {φ₁ φ₂ : FTy} (d : DotDims ⟨2, ![M, K]⟩ ⟨2, ![N, K]⟩ ⟨2, ![M, N]⟩) (h : RowsRows d)
    (prec : Option ContractPrecision) (sched : HostSchedule) (lhs : FVec Ideal ⟨2, ![M, K]⟩ φ₁) (rhs : FVec Ideal ⟨2, ![N, K]⟩ φ₂)
    (p : Fin M) (q : Fin N) :
    FloatOps.dotGeneral d prec sched lhs rhs (ix2 p q) = ∑ k : Fin K, lhs (ix2 p k) * rhs (ix2 q k) :=
  (Ideal.dotGeneral_apply d prec sched lhs rhs (ix2 p q)).trans (sum_contr d h lhs rhs p q)

end Cert.LibDotRows

end
-- ==== Proof.LibColumn.lean ====
import Idealize.ShloMosaic.Lib.ValueLayout

/-!
# A trailing unit axis

A vector of length `a` laid out as one column `[a, 1]`, and that column repeated along the second axis to `[a, b]`:
read at an index, the column holds the vector's entry of the same row, and the repeated column holds, at `(p, c)`,
the column's entry of row `p` whatever `c` is. Together they say a row-wise scale factor kept as a column reaches
every entry of its row.
-/

namespace Cert.LibColumn

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- One column broadcast over `b` columns reads, at `(p, c)`, the column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColumn
-- ==== Proof.KernelEntry.lean ====
import proofs.«180549_j38878043963794_1_alg».proof.Proof.Gen.KernelIdeal.Skeleton
import proofs.«180549_j38878043963794_1_alg».proof.Proof.FactRow
import proofs.«180549_j38878043963794_1_alg».proof.Proof.LibDotRows
import proofs.«180549_j38878043963794_1_alg».proof.Proof.LibColumn
import Idealize.ShloMosaic.Lib.ValueLayout

/-!
# What the kernel body stores, entry by entry

The body works on 4000 facts at a time: it multiplies their relation rows by the rows of `W` (both contracted along
their second axis, into a zero accumulator), adds the bias stood up as one row and repeated down the block, gates by
the query block, takes the maximum with zero and scales each row by its prior, kept as a column and repeated along
the row. Over the extended reals the change of float format on the way into the product is the identity, so entry
`(p, q)` of the stored block is entry `q` of the message of the block's fact `p`.
-/

noncomputable section

namespace Cert.KernelIdeal.Hand

open Cert.KernelIdeal Cert.KernelIdeal.Gen Idealize.ShloMosaic Idealize.ShloMosaic.ValueIdx
open scoped BigOperators

/-- The stored block at `(p, q)`: the product is `∑ k, rel (p, k) · W (q, k)`, the repeated bias row is `b q`, the repeated
    prior column is the prior of row `p`. -/
theorem payload_apply (x0 : Vec Ideal S4000x256 .f32) (x3 : Vec Ideal S256x256 .f32) (x4 : Vec Ideal S256 .f32)
    (x1 : Vec Ideal S4000x256 .f32) (x2 : Vec Ideal S4000x1 .f32) (p : Fin 4000) (q : Fin 256) :
    k0_pay1 (F := Ideal) x0 x3 x4 x1 x2 (ix2 p q)
      = Cert.FactRow.entry (fun k => x0 (ix2 p k)) x3 x4 (x1 (ix2 p q)) (x2 (ix2 p (0 : Fin 1))) q := by
  unfold k0_pay1
  simp only [mulf_apply, maximumf_apply, addf_apply, broadcast_apply]
  simp only [matmul, shapeCast_self]
  rw [Cert.LibDotRows.matmul_zero_apply _ ⟨rfl, rfl, rfl, rfl, rfl, rfl⟩, broadcastTo_1b_ab_apply, shapeCast_a_1a_apply,
    Cert.LibColumn.broadcastTo_a1_ab_apply]
  rfl

/-- The same at any index of the block: row `y 0` of the block's operands, column `y 1`. -/
theorem payload_at (x0 : Vec Ideal S4000x256 .f32) (x3 : Vec Ideal S256x256 .f32) (x4 : Vec Ideal S256 .f32)
    (x1 : Vec Ideal S4000x256 .f32) (x2 : Vec Ideal S4000x1 .f32) (y : S4000x256.Idx) :
    k0_pay1 (F := Ideal) x0 x3 x4 x1 x2 y
      = Cert.FactRow.entry (fun k => x0 (ix2 (y 0) k)) x3 x4 (x1 y) (x2 (ix2 (y 0) (0 : Fin 1))) (y 1) := by
  obtain ⟨p, q, rfl⟩ : ∃ (p : Fin 4000) (q : Fin 256), y = ix2 p q := ⟨y 0, y 1, eq_ix2 y⟩
  exact payload_apply x0 x3 x4 x1 x2 p q

end Cert.KernelIdeal.Hand

end
-- ==== Proof.KernelMessages.lean ====
import proofs.«180549_j38878043963794_1_alg».proof.Proof.Gen.KernelIdeal.Frame
import proofs.«180549_j38878043963794_1_alg».proof.Proof.KernelEntry
import Idealize.ShloMosaic.Lib.Pipeline.Value

/-!
# The kernel's output array is the array of messages

Grid point `t` of the 125 works on facts `4000 t … 4000 t + 3999`: its relation, query and prior blocks are those rows of
the three gathered arrays, the weight matrix and the bias are whole at every point, and its output block is those rows
of the result. By the entry-by-entry reading of the body, what point `t` writes back is rows `4000 t …` of the array of
messages of the gathered arrays; the 125 blocks tile the 500000 rows (row `r` lies in block `r / 4000`), so after the
last point the output array is the array of messages.
-/

set_option maxRecDepth 16384

noncomputable section

namespace Cert.KernelIdeal.Hand

open Cert.KernelIdeal Cert.KernelIdeal.Gen Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

theorem hz2 : (![0, 0] : Fin 2 → Nat) = fun _ => 0 := funext fun a => by fin_cases a <;> rfl
theorem hz1 : (![0] : Fin 1 → Nat) = fun _ => 0 := funext fun a => by fin_cases a <;> rfl

/-- The index maps over the grid: the three fact-indexed inputs and the output sit at block row `t`, the weight matrix
    and the bias at block zero. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 1) = 0
    ∧ win0_5.index t (0 : Fin 2) = t.val ∧ win0_5.index t (1 : Fin 2) = 0 :=
  (by decide +kernel : ∀ t : Fin grid0.N, _)

/-- The relation block at point `t` is rows `4000 t …` of the gathered relation rows. -/
theorem rel_block (c : Dev nD) (t : Fin cfg0.N) (x : S4000x256.Idx) (i : S500000x256.Idx)
    (h0 : (i 0).val = t.val * 4000 + (x 0).val) (h1 : (i 1).val = (x 1).val) :
    (iblk m c 0 t : Vec Ideal S4000x256 .f32) x = (V m c main_v6 : S500000x256.Idx → EReal) i := by
  obtain ⟨e0, e1, -⟩ := idx_facts t
  unfold iblk
  rw [View.read_apply]
  show (V m c main_v6 : S500000x256.Idx → EReal) _ = _
  refine congrArg (V m c main_v6 : S500000x256.Idx → EReal) ?_
  funext a
  apply Fin.ext
  match a with
  | ⟨0, _⟩ => show win0_0.index t (0 : Fin 2) * 4000 + 1 * (x 0).val = (i 0).val; rw [e0, h0]; omega
  | ⟨1, _⟩ => show win0_0.index t (1 : Fin 2) * 256 + 1 * (x 1).val = (i 1).val; rw [e1, h1]; omega

/-- The query block at point `t` is rows `4000 t …` of the gathered query rows. -/
theorem query_block (c : Dev nD) (t : Fin cfg0.N) (x : S4000x256.Idx) (i : S500000x256.Idx)
    (h0 : (i 0).val = t.val * 4000 + (x 0).val) (h1 : (i 1).val = (x 1).val) :
    (iblk m c 1 t : Vec Ideal S4000x256 .f32) x = (V m c main_v13 : S500000x256.Idx → EReal) i := by
  obtain ⟨-, -, e0, e1, -⟩ := idx_facts t
  unfold iblk
  rw [View.read_apply]
  show (V m c main_v13 : S500000x256.Idx → EReal) _ = _
  refine congrArg (V m c main_v13 : S500000x256.Idx → EReal) ?_
  funext a
  apply Fin.ext
  match a with
  | ⟨0, _⟩ => show win0_1.index t (0 : Fin 2) * 4000 + 1 * (x 0).val = (i 0).val; rw [e0, h0]; omega
  | ⟨1, _⟩ => show win0_1.index t (1 : Fin 2) * 256 + 1 * (x 1).val = (i 1).val; rw [e1, h1]; omega

/-- The prior block at point `t` is rows `4000 t …` of the column of gathered priors. -/
theorem prior_block (c : Dev nD) (t : Fin cfg0.N) (x : S4000x1.Idx) (i : S500000x1.Idx)
    (h0 : (i 0).val = t.val * 4000 + (x 0).val) (h1 : (i 1).val = (x 1).val) :
    (iblk m c 2 t : Vec Ideal S4000x1 .f32) x = (V m c main_v22 : S500000x1.Idx → EReal) i := by
  obtain ⟨-, -, -, -, e0, e1, -⟩ := idx_facts t
  unfold iblk
  rw [View.read_apply]
  show (V m c main_v22 : S500000x1.Idx → EReal) _ = _
  refine congrArg (V m c main_v22 : S500000x1.Idx → EReal) ?_
  funext a
  apply Fin.ext
  match a with
  | ⟨0, _⟩ => show win0_2.index t (0 : Fin 2) * 4000 + 1 * (x 0).val = (i 0).val; rw [e0, h0]; omega
  | ⟨1, _⟩ => show win0_2.index t (1 : Fin 2) * 1 + 1 * (x 1).val = (i 1).val; rw [e1, h1]; omega

/-- The weight matrix is one block, the same at every point. -/
theorem weight_block (c : Dev nD) (t : Fin cfg0.N) :
    (iblk m c 3 t : Vec Ideal S256x256 .f32) = (V m c main_arg4 : S256x256.Idx → EReal) := by
  obtain ⟨-, -, -, -, -, -, e0, e1, -⟩ := idx_facts t
  funext x
  unfold iblk
  rw [View.read_apply]
  show (V m c main_arg4 : S256x256.Idx → EReal) _ = _
  refine congrArg (V m c main_arg4 : S256x256.Idx → EReal) ?_
  funext a
  apply Fin.ext
  match a with
  | ⟨0, _⟩ => show win0_3.index t (0 : Fin 2) * 256 + 1 * (x 0).val = (x 0).val; rw [e0]; omega
  | ⟨1, _⟩ => show win0_3.index t (1 : Fin 2) * 256 + 1 * (x 1).val = (x 1).val; rw [e1]; omega

/-- The bias is one block, the same at every point. -/
theorem bias_block (c : Dev nD) (t : Fin cfg0.N) :
    (iblk m c 4 t : Vec Ideal S256 .f32) = (V m c main_arg5 : S256.Idx → EReal) := by
  obtain ⟨-, -, -, -, -, -, -, -, e0, -⟩ := idx_facts t
  funext x
  unfold iblk
  rw [View.read_apply]
  show (V m c main_arg5 : S256.Idx → EReal) _ = _
  refine congrArg (V m c main_arg5 : S256.Idx → EReal) ?_
  funext a
  apply Fin.ext
  match a with
  | ⟨0, _⟩ => show win0_4.index t (0 : Fin 1) * 256 + 1 * (x 0).val = (x 0).val; rw [e0]; omega

/-- The array of messages of the arrays the region finds: the gathered relation rows, query rows and priors, the weight
    matrix and the bias. -/
abbrev messages (c : Dev nD) : S500000x256.Idx → EReal :=
  Cert.FactRow.facts (V m c main_v6) (V m c main_v13) (V m c main_v22) (V m c main_arg4) (V m c main_arg5)

/-- What point `t` writes back is rows `4000 t …` of the array of messages. -/
theorem flushed_eq (c : Dev nD) (t : Fin cfg0.N) :
    (dats m 0 c).flushed 5 t = ((cfg0.win 5).blk t).view.read (Elt Ideal) (messages m c) := by
  show (cfg0.win 5).cut (grid0.coords t) ((dats m 0 c).after 5 t) = _
  rw [after0_5]
  unfold out0_5
  rw [View.canon_unit_zero hz2]
  simp only [View.ld_unit_zero (S := S4000x256) hz2, View.ld_unit_zero (S := S256x256) hz2,
    View.ld_unit_zero (S := S256) hz1, View.ld_unit_zero (S := S4000x1) hz2]
  obtain ⟨-, -, -, -, -, -, -, -, -, e0, e1⟩ := idx_facts t
  funext y
  have hy0 : (y 0).val < 4000 := (y 0).isLt
  have hy1 : (y 1).val < 256 := (y 1).isLt
  have r0 : ((((cfg0.win 5).blk t).view.emb y) 0).val = t.val * 4000 + (y 0).val := by
    show win0_5.index t (0 : Fin 2) * 4000 + 1 * (y 0).val = _
    rw [e0]; omega
  have r1 : ((((cfg0.win 5).blk t).view.emb y) 1).val = (y 1).val := by
    show win0_5.index t (1 : Fin 2) * 256 + 1 * (y 1).val = _
    rw [e1]; omega
  show k0_pay1 (F := Ideal) (iblk m c 0 t) (iblk m c 3 t) (iblk m c 4 t) (iblk m c 1 t) (iblk m c 2 t) ((cfg0.win 5).xinj (grid0.coords t) y)
    = Cert.FactRow.facts (V m c main_v6) (V m c main_v13) (V m c main_v22) (V m c main_arg4) (V m c main_arg5) (((cfg0.win 5).blk t).view.emb y)
  refine (payload_at (iblk m c 0 t) (iblk m c 3 t) (iblk m c 4 t) (iblk m c 1 t) (iblk m c 2 t) ((cfg0.win 5).xinj (grid0.coords t) y)).trans ?_
  unfold Cert.FactRow.facts
  refine Cert.FactRow.entry_congr (fun k => rel_block m c t _ _ ?_ ?_) (weight_block m c t) (bias_block m c t)
    (query_block m c t _ _ ?_ ?_) (prior_block m c t _ _ ?_ ?_) (Fin.ext ?_)
  · exact r0
  · rfl
  · exact r0
  · exact r1
  · exact r0
  · rfl
  · exact r1.symm

/-- An index of the array is in point `t`'s block iff each coordinate is in the block's range on its axis. -/
theorem mem_blk (t : Fin cfg0.N) (i : S500000x256.Idx) :
    i ∈ ((cfg0.win 5).blk t).view.set ↔ ∀ a : Fin 2, win0_5.index t a * S4000x256.size a ≤ (i a).val ∧ (i a).val < win0_5.index t a * S4000x256.size a + S4000x256.size a := by
  show i ∈ ((View.whole main_v23).slice (win0_5.rect t)).set ↔ _
  rw [View.set_slice_whole, Rect.mem_set_unit]
  exact Iff.rfl

/-- Every index of the output array lies in some point's block: row `r` in the block of point `r / 4000`. -/
theorem covered (i : S500000x256.Idx) :
    ∃ t : Fin cfg0.N, (cfg0.win 5).flush t = true ∧ i ∈ ((cfg0.win 5).blk t).view.set := by
  have hN : cfg0.N = 125 := N_0
  have h0 : (i 0).val < 500000 := (i 0).isLt
  have h1 : (i 1).val < 256 := (i 1).isLt
  have ht : (i 0).val / 4000 < cfg0.N := by rw [hN]; omega
  obtain ⟨-, -, -, -, -, -, -, -, -, e0, e1⟩ := idx_facts ⟨(i 0).val / 4000, ht⟩
  refine ⟨⟨(i 0).val / 4000, ht⟩, flush0_5 _, ?_⟩
  rw [mem_blk]
  intro a
  match a with
  | ⟨0, _⟩ =>
    show win0_5.index ⟨(i 0).val / 4000, ht⟩ (0 : Fin 2) * 4000 ≤ (i 0).val ∧ (i 0).val < win0_5.index ⟨(i 0).val / 4000, ht⟩ (0 : Fin 2) * 4000 + 4000
    rw [e0]; show (i 0).val / 4000 * 4000 ≤ (i 0).val ∧ (i 0).val < (i 0).val / 4000 * 4000 + 4000; omega
  | ⟨1, _⟩ =>
    show win0_5.index ⟨(i 0).val / 4000, ht⟩ (1 : Fin 2) * 256 ≤ (i 1).val ∧ (i 1).val < win0_5.index ⟨(i 0).val / 4000, ht⟩ (1 : Fin 2) * 256 + 256
    rw [e1]; omega

/-- After the last point the output array is the array of messages. -/
theorem final (c : Dev nD) : (dats m 0 c).arrAt 5 cfg0.N = messages m c :=
  (dats m 0 c).arrAt_eq_of_cover 5 (messages m c) (fun t _ => flushed_eq m c t) covered

end Cert.KernelIdeal.Hand

end
-- ==== Proof.RefStages.lean ====
import proofs.«180549_j38878043963794_1_alg».proof.Proof.Gen.ReferenceIdeal.Read
import proofs.«180549_j38878043963794_1_alg».proof.Proof.FactRow

/-!
# The reference computes the array of messages

The reference transposes `W` and multiplies the gathered relation rows by it, adds the bias row, gates by the gathered
query rows, applies `relu` and scales by the gathered priors repeated along each row. Read at `(p, q)`, the product with
the transpose is `∑ k, rel (p, k) · W (q, k)`, the repeated bias is `b q` and the repeated prior is the prior of row `p`:
entry `q` of fact `p`'s message. The three gathers stay unopened: they only say which rows the facts carry.
-/

noncomputable section

namespace Cert.ReferenceIdeal.RefValue

open Cert.ReferenceIdeal Cert.ReferenceIdeal.Gen Cert.ReferenceIdeal.Read
open Idealize.ShloMosaic Idealize.ShloMosaic.ValueIdx
open scoped BigOperators

/-- The left operand of the product is read in the result's row, at the summed coordinate. -/
theorem lidx_eq (p : Fin 500000) (q k : Fin 256) : lidx_main_v15 (ix2 p q) k = ix2 p k :=
  funext fun a => Fin.ext (by match a with | ⟨0, _⟩ => rfl | ⟨1, _⟩ => rfl)

/-- The transposed weight matrix at (summed coordinate, result's column) is `W` at (column, summed coordinate). -/
theorem ridx_eq (p : Fin 500000) (q k : Fin 256) : idx_main_v14 (ridx_main_v15 (ix2 p q) k) = ix2 q k :=
  funext fun a => Fin.ext (by match a with | ⟨0, _⟩ => rfl | ⟨1, _⟩ => rfl)

/-- The bias vector stood up as a row and repeated down the rows is read at the result's column. -/
theorem bias_idx_eq (p : Fin 500000) (q : Fin 256) : idx_main_v16 (idx_main_v17 (ix2 p q)) = ix1 q :=
  funext fun a => Fin.ext (by match a with | ⟨0, _⟩ => rfl)

/-- The prior column repeated along the rows is read in the result's row. -/
theorem prior_idx_eq (p : Fin 500000) (q : Fin 256) : idx_main_v30 (ix2 p q) = ix2 p (0 : Fin 1) :=
  funext fun a => Fin.ext (by match a with | ⟨0, _⟩ => rfl | ⟨1, _⟩ => rfl)

/-- The array the reference scatters is the array of messages of the gathered relation rows, query rows and priors. -/
theorem messages_eq (x1 : (⟨S8x2000, .f32⟩ : BufTy).Contents (Elt Ideal)) (x2 : (⟨S8x256, .f32⟩ : BufTy).Contents (Elt Ideal))
    (x3 : (⟨S2000x256, .f32⟩ : BufTy).Contents (Elt Ideal)) (x4 : (⟨S256x256, .f32⟩ : BufTy).Contents (Elt Ideal))
    (x5 : (⟨S256, .f32⟩ : BufTy).Contents (Elt Ideal)) (x6 x7 x9 : (⟨S500000, .i32⟩ : BufTy).Contents (Elt Ideal)) :
    val_main_v31 (F := Ideal) x1 x2 x3 x4 x5 x6 x7 x9
      = Cert.FactRow.facts (val_main_v6 (F := Ideal) x3 x7) (val_main_v13 (F := Ideal) x2 x9) (val_main_v29 (F := Ideal) x1 x6) x4 x5 := by
  funext i
  obtain ⟨p, q, rfl⟩ : ∃ (p : Fin 500000) (q : Fin 256), i = ix2 p q := ⟨i 0, i 1, eq_ix2 i⟩
  rw [Cert.FactRow.facts_apply, val_main_v31_apply, val_main_v20_apply, val_main_v19_apply, val_main_v18_apply,
    val_main_v15_apply, val_main_v17_apply, val_main_v16_apply, val_main_v30_apply, val_main_call0_v0_apply,
    val_main_call0_cst_apply, bias_idx_eq, prior_idx_eq]
  simp only [val_main_v14_apply, lidx_eq, ridx_eq]
  rfl

end Cert.ReferenceIdeal.RefValue

end
-- ==== Proof.KernelRun.lean ====
import proofs.«180549_j38878043963794_1_alg».proof.Proof.KernelMessages
import proofs.«180549_j38878043963794_1_alg».proof.Proof.RefStages
import Idealize.ShloMosaic.Lib.StableHlo.Run

/-!
# The kernel's program, read from its arguments

Before the region the program gathers, with the same operations and in the same order as the reference, one relation
row, one query row and one prior per fact; these are the arrays the region finds. After the region it adds each
fact's message into the row of its tail entity, starting from zeros, and lays the 16000 rows out as 8 × 2000 — again
the reference's operations. The region leaves the array of messages of what it found, which is the array the
reference scatters; so the program's result is the reference's last stage, applied to the program's own arguments.
-/

set_option maxRecDepth 16384

noncomputable section

namespace Cert.KernelIdeal.Hand

open Cert.KernelIdeal Cert.KernelIdeal.Gen Idealize.ShloMosaic Idealize.ShloMosaic.TcCoe Idealize.SL.Sem Idealize.ShloMosaic.ValueIdx
open Idealize.ShloMosaic.Pipeline (Dat)
open Idealize.ShloMosaic.StableHlo

variable (m : (ℓ : Loc nD τ sig) → Buf (Elt Ideal) ℓ) (ρ : Dev nD → PrngReg)

/-- The relation rows the region finds: the rows of the relation table at the (wrapped) relation numbers. -/
theorem found_rel (c : Dev nD) :
    (V m c main_v6 : S500000x256.Idx → EReal) = Cert.ReferenceIdeal.Read.val_main_v6 (F := Ideal) (m ((c : Thread nD τ).loc main_arg3)) (m ((c : Thread nD τ).loc main_arg7)) := by
  dsimp only [Gen.V, Gen.V0]
  simp only [Gen.hostOps0, List.flatten_cons, List.flatten_nil, List.append_nil, List.cons_append, List.nil_append]
  after_results_simp <;> rfl

/-- The query rows the region finds: the rows of the instruction table at the (wrapped) batch numbers. -/
theorem found_query (c : Dev nD) :
    (V m c main_v13 : S500000x256.Idx → EReal) = Cert.ReferenceIdeal.Read.val_main_v13 (F := Ideal) (m ((c : Thread nD τ).loc main_arg2)) (m ((c : Thread nD τ).loc main_arg9)) := by
  dsimp only [Gen.V, Gen.V0]
  simp only [Gen.hostOps0, List.flatten_cons, List.flatten_nil, List.append_nil, List.cons_append, List.nil_append]
  after_results_simp <;> rfl

/-- The priors the region finds, as a column: the flattened distribution at the (wrapped) head numbers. -/
theorem found_prior (c : Dev nD) :
    (V m c main_v22 : S500000x1.Idx → EReal) = Cert.ReferenceIdeal.Read.val_main_v29 (F := Ideal) (m ((c : Thread nD τ).loc main_arg1)) (m ((c : Thread nD τ).loc main_arg6)) := by
  dsimp only [Gen.V, Gen.V0]
  simp only [Gen.hostOps0, List.flatten_cons, List.flatten_nil, List.append_nil, List.cons_append, List.nil_append]
  after_results_simp <;> rfl

/-- The region's output array after the last point is the array the reference scatters. -/
theorem final_messages (c : Dev nD) :
    (dats m 0 c).arrAt 5 cfg0.N = Cert.ReferenceIdeal.Read.val_main_v31 (F := Ideal) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg9)) := by
  rw [final, Cert.ReferenceIdeal.RefValue.messages_eq]
  show Cert.FactRow.facts (V m c main_v6) (V m c main_v13) (V m c main_v22) (V m c main_arg4) (V m c main_arg5) = _
  rw [found_rel m c, found_query m c, found_prior m c, V_main_arg4 m c, V_main_arg5 m c]

/-- The program's result: the operations after the region applied to the region's output array and the tail numbers,
    which no operation before or inside the region writes. -/
theorem result_eq (c : Dev nD) :
    Pipeline.afterTail₀ cfgs (dats m) 0 (V0 m) [hostOps1] c main_v27
      = Cert.ReferenceIdeal.Read.val_main_v35 (F := Ideal) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  have hA : Pipeline.withArrays (cfgs 0).spec c (V0 m c) (fun w => (dats m 0 c).arrAt w (cfgs 0).N) (Proc.tc.devRef main_v23)
      = Cert.ReferenceIdeal.Read.val_main_v31 (F := Ideal) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg9)) :=
    (Pipeline.withArrays_arr spec0 launch0.win.arr_inj c _ _ 5).trans (final_messages m c)
  have h8 : Pipeline.withArrays (cfgs 0).spec c (V0 m c) (fun w => (dats m 0 c).arrAt w (cfgs 0).N) (Proc.tc.devRef main_arg8)
      = m ((c : Thread nD τ).loc main_arg8) :=
    (Pipeline.withArrays_of_ne _ c (V0 m c) _ main_arg8 (by exact (by decide : ∀ w, Pipeline.arrRef spec0 w ≠ main_arg8))).trans
      (V_main_arg8 m c)
  unfold Pipeline.afterTail₀
  show StableHlo.after hostOps1 _ (Proc.devRef .tc main_v27) = _
  after_results
  rw [hA, h8]
  rfl

/-- Every weakly fair execution of the program terminates with its result at the reference's last stage of the
    program's own arguments, and the arguments unchanged. -/
theorem run : θ_run defs (onTc (τ := τ) (main (F := Ideal))) ⟨m, fun _ => 0, ρ⟩ fun r => ∀ c : Dev nD,
      r.2.mem ((c : Thread nD τ).loc main_v27) = Cert.ReferenceIdeal.Read.val_main_v35 (F := Ideal) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9) :=
  (θ_run defs _ _).mono (fun _ h c =>
    ⟨((h c).2 main_v27 (Pipeline.mem_restRefs_of main_v27 (by decide) (by decide))).trans (result_eq m c),
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      ((h c).1 3).trans (((dats m 0 c).arrAt_in 3 rfl _).trans ((A_eq m c 3).trans (V_main_arg4 m c))),
      ((h c).1 4).trans (((dats m 0 c).arrAt_in 4 rfl _).trans ((A_eq m c 4).trans (V_main_arg5 m c))),
      (((h c).2 main_arg6 (Pipeline.mem_restRefs_of main_arg6 (by decide) (by decide))).trans (W_main_arg6 m (dats m) c)),
      (((h c).2 main_arg7 (Pipeline.mem_restRefs_of main_arg7 (by decide) (by decide))).trans (W_main_arg7 m (dats m) c)),
      (((h c).2 main_arg8 (Pipeline.mem_restRefs_of main_arg8 (by decide) (by decide))).trans (W_main_arg8 m (dats m) c)),
      (((h c).2 main_arg9 (Pipeline.mem_restRefs_of main_arg9 (by decide) (by decide))).trans (W_main_arg9 m (dats m) c))⟩)
    (run_main m ρ)

end Cert.KernelIdeal.Hand

end
-- ==== Proof.lean ====
/- The proof of `Cert.Claim`: a message-passing layer over 500000 facts. Each fact carries a relation row, a query row
   and a prior, gathered from small tables; its message is the relation row projected by the weight matrix plus the bias,
   gated by the query row, cut off below at zero and scaled by the prior; the messages are added into the rows of the
   facts' tail entities. The kernel's program computes the messages 4000 facts at a time inside one region and
   gathers before it and scatters after it exactly as the reference does; the reference computes them with one whole
   product against the transposed weight matrix.
   Proof/FactRow.lean states one message entry and the array of all messages; Proof/RefStages.lean shows the array the
   reference scatters is that array; Proof/KernelEntry.lean shows the block the kernel body stores is that array's rows,
   entry by entry (a product contracting the second axis of both operands is the product with the transpose, and a
   change of float format is the identity over the extended reals); Proof/KernelMessages.lean puts the 125 blocks
   together; Proof/KernelRun.lean reads the operations before and after the region. No law of arithmetic joins the two
   sides beyond reading both as the same sum, so the inputs' finiteness is never used. -/
import proofs.«180549_j38878043963794_1_alg».proof.Defs
import proofs.«180549_j38878043963794_1_alg».proof.Proof.Gen.Kernel
import proofs.«180549_j38878043963794_1_alg».proof.Proof.Gen.Kernel.Frame
import proofs.«180549_j38878043963794_1_alg».proof.Proof.Gen.KernelIdeal
import proofs.«180549_j38878043963794_1_alg».proof.Proof.Gen.KernelIdeal.Frame
import proofs.«180549_j38878043963794_1_alg».proof.Proof.Gen.ReferenceIdeal
import proofs.«180549_j38878043963794_1_alg».proof.Proof.Gen.ReferenceIdeal.Run
import proofs.«180549_j38878043963794_1_alg».proof.Proof.Gen.ReferenceIdeal.Read
import proofs.«180549_j38878043963794_1_alg».proof.Proof.Gen.Pre_finite_inputs
import proofs.«180549_j38878043963794_1_alg».proof.Proof.KernelRun
import Idealize.ShloMosaic.Adequacy
import Idealize.ShloMosaic.Init

noncomputable section

namespace Cert.Proof

open Idealize.ShloMosaic Idealize.SL.Sem

/-- The kernel's program as printed runs and leaves its arguments as they were. -/
theorem frame_kernel : Cert.frame_Kernel := fun m ρ _ => Cert.Kernel.Gen.frame m ρ

/-- So does its idealization. -/
theorem frame_ideal : Cert.frame_KernelIdeal := fun m ρ _ => Cert.KernelIdeal.Gen.frame m ρ

/-- The reference is a straight line of host operations: its run, with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- Both programs end with the reference's last stage — the scattered sum of the messages, laid out as 8 × 2000 rows —
    of their own arguments; the arguments agree. -/
theorem algebraic : Cert.algebraic_KernelIdeal_ReferenceIdeal := by
  intro m ρ m' ρ' _ hagree
  refine ⟨_, Cert.KernelIdeal.Hand.run m ρ, ?_⟩
  refine (θ_run Cert.ReferenceIdeal.defs _ _).mono (fun _ h c => ⟨(h c).1.trans ?_, (h c).2⟩)
    (Cert.ReferenceIdeal.Value.run (F := Ideal) m' ρ')
  obtain ⟨-, e1, e2, e3, e4, e5, e6, e7, e8, e9⟩ := hagree c
  refine (Cert.ReferenceIdeal.Read.val_main_v35_eq (F := Ideal) _ _ _ _ _ _ _ _ _).trans ?_
  rw [e1, e2, e3, e4, e5, e6, e7, e8, e9]

theorem claim : Cert.Claim :=
  ⟨Cert.Kernel.Gen.facts, Cert.KernelIdeal.Gen.facts, Cert.ReferenceIdeal.Gen.facts, Cert.Pre_finite_inputs.Gen.facts,
    frame_kernel, frame_ideal, frame_reference, preserves, algebraic⟩

end Cert.Proof

end
